-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1 : Shape := ⟨3, ![8, 2048, 1]⟩
abbrev S8x8192x1 : Shape := ⟨3, ![8, 8192, 1]⟩
abbrev S8x8192x64 : Shape := ⟨3, ![8, 8192, 64]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel

variable [Facts]

def fn {F : FTy → Type} [FloatOps F] (main_arg0 : IVec S8x2048x1 32) (main_arg1 : IVec S8x8192x1 32) (main_arg2 : FVec F S8x8192x64 .f32) : IVec S_ 1 :=
  let main_v0 : FVec F S8x8192x64 .f32 := Host.absf main_arg2
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  main_v3
-- ==== Kernel.lean ====
abbrev S8x2048x1 : Shape := ⟨3, ![8, 2048, 1]⟩
abbrev S8x8192x1 : Shape := ⟨3, ![8, 8192, 1]⟩
abbrev S8x8192x64 : Shape := ⟨3, ![8, 8192, 64]⟩
abbrev S8x1x2048 : Shape := ⟨3, ![8, 1, 2048]⟩
abbrev S_ : Shape := ⟨0, ![]⟩
abbrev S8x8192x65 : Shape := ⟨3, ![8, 8192, 65]⟩
abbrev S8x64x2048 : Shape := ⟨3, ![8, 64, 2048]⟩
abbrev S1x1x2048 : Shape := ⟨3, ![1, 1, 2048]⟩
abbrev S1x2048x1 : Shape := ⟨3, ![1, 2048, 1]⟩
abbrev S1x2048x65 : Shape := ⟨3, ![1, 2048, 65]⟩
abbrev S1x64x2048 : Shape := ⟨3, ![1, 64, 2048]⟩
abbrev S65x2048 : Shape := ⟨2, ![65, 2048]⟩
abbrev S2048x1 : Shape := ⟨2, ![2048, 1]⟩
abbrev S1x2048 : Shape := ⟨2, ![1, 2048]⟩
abbrev S2048x2048 : Shape := ⟨2, ![2048, 2048]⟩
abbrev S2048x65 : Shape := ⟨2, ![2048, 65]⟩
abbrev S64x2048 : Shape := ⟨2, ![64, 2048]⟩
abbrev S8x2048x64 : Shape := ⟨3, ![8, 2048, 64]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x1, .i32⟩
  | .hbm, ⟨1, _⟩ => ⟨S8x8192x1, .i32⟩
  | .hbm, ⟨2, _⟩ => ⟨S8x8192x64, .f32⟩
  | .hbm, ⟨3, _⟩ => ⟨S8x1x2048, .i32⟩
  | .hbm, ⟨4, _⟩ => ⟨S_, .f32⟩
  | .hbm, ⟨5, _⟩ => ⟨S8x8192x1, .f32⟩
  | .hbm, ⟨6, _⟩ => ⟨S8x8192x65, .f32⟩
  | .hbm, ⟨7, _⟩ => ⟨S8x64x2048, .f32⟩
  | .hbm, ⟨8, _⟩ => ⟨S8x2048x64, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x1, .i32⟩
  | .local _ .vmem, ⟨3, _⟩ => ⟨S1x2048x1, .i32⟩
  | .local _ .vmem, ⟨4, _⟩ => ⟨S1x2048x65, .f32⟩
  | .local _ .vmem, ⟨5, _⟩ => ⟨S1x2048x65, .f32⟩
  | .local _ .vmem, ⟨6, _⟩ => ⟨S1x64x2048, .f32⟩
  | .local _ .vmem, ⟨7, _⟩ => ⟨S1x64x2048, .f32⟩
  | .local _ .vmem, ⟨8, _⟩ => ⟨S65x2048, .f32⟩
  | _, _ => ⟨S8x2048x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_13 : BitVec 32 := 0#32
  let v25 : BitVec 1 := Scalar.cmpi .ne v24 c0_i32_13
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x2048x1_S8x1x2048_0_2_1 : S8x2048x1.Transposes [0, 2, 1] S8x1x2048
  bcast_S_S8x8192x1 : S_.BroadcastsInDim S8x8192x1 (![] : Fin 0 → Fin S8x8192x1.rank)
  concatenates_S8x8192x64_S8x8192x1_S8x8192x65_d2 : Shape.Concatenates [S8x8192x64, S8x8192x1] S8x8192x65 2
  inb_S65x2048_S65x2048_0_0 : ∀ a, (![0, 0] : Fin 2 → Nat) a + S65x2048.size a ≤ S65x2048.size a
  h_S65x2048 : 0 < S65x2048.numel
  shapeCasts_S65x2048_S65x2048 : S65x2048.ShapeCasts S65x2048
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S2048x1_S2048x2048 : S2048x1.Broadcasts S2048x2048
  broadcasts_S1x2048_S2048x2048 : S1x2048.Broadcasts S2048x2048
  natLt_1_32 : 1 < 32
  bitsLt_bf16_f32 : FTy.bits .bf16 < FTy.bits .f32
  inb_S1x2048x65_S1x2048x65_0_0_0 : ∀ a, (![0, 0, 0] : Fin 3 → Nat) a + S1x2048x65.size a ≤ S1x2048x65.size a
  h_S1x2048x65 : 0 < S1x2048x65.numel
  shapeCasts_S1x2048x65_S2048x65 : S1x2048x65.ShapeCasts S2048x65
  transposes_S2048x65_p1_0_S65x2048 : S2048x65.Transposes [1, 0] S65x2048
  slices_S65x2048_o0_0_S64x2048 : S65x2048.Slices ![0, 0] S64x2048
  slices_S65x2048_o64_0_S1x2048 : S65x2048.Slices ![64, 0] S1x2048
  broadcasts_S1x2048_S64x2048 : S1x2048.Broadcasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  transposes_S8x64x2048_S8x2048x64_0_2_1 : S8x64x2048.Transposes [0, 2, 1] S8x2048x64
  dot_S65x2048_S2048x2048_S65x2048_1_0_0_1_n_n_wf : DotDims.WF S65x2048 S2048x2048 S65x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S8x1x2048.size a
  hwx0_0 : ∀ i : grid0.Coords, EltTy.bits .i32 = 32 ∨ (Rect.block (s := S8x1x2048) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x8192x1.size a
  hwx0_1 : ∀ i : grid0.Coords, EltTy.bits .i32 = 32 ∨ (Rect.block (s := S8x8192x1) S1x2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x65.size a ≤ S8x8192x65.size a
  hwx0_2 : ∀ i : grid0.Coords, EltTy.bits .f32 = 32 ∨ (Rect.block (s := S8x8192x65) S1x2048x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S8x64x2048.size a
  hwx0_3 : ∀ i : grid0.Coords, EltTy.bits .f32 = 32 ∨ (Rect.block (s := S8x64x2048) S1x64x2048.size (cc0_transform_3 i) (hinb0_3 i)).WholeWords (EltTy.packing .f32)

variable [Facts₀]

def dot_S65x2048_S2048x2048_S65x2048_1_0_0_1_n_n : DotDims S65x2048 S2048x2048 S65x2048 where
  lhsContracting := [1]
  rhsContracting := [0]
  lhsNonContracting := [0]
  rhsNonContracting := [1]
  lhsBatch := []
  rhsBatch := []
  wf := dot_S65x2048_S2048x2048_S65x2048_1_0_0_1_n_n_wf

abbrev win0_0 : Pipeline.Window sig grid0 :=
  Pipeline.Window.ofSpec (Memref.whole main_v0) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1 : Shape := ⟨3, ![8, 2048, 1]⟩
abbrev S8x8192x1 : Shape := ⟨3, ![8, 8192, 1]⟩
abbrev S8x8192x64 : Shape := ⟨3, ![8, 8192, 64]⟩
abbrev S8x2048 : Shape := ⟨2, ![8, 2048]⟩
abbrev S8x8192 : Shape := ⟨2, ![8, 8192]⟩
abbrev S8x1x8192 : Shape := ⟨3, ![8, 1, 8192]⟩
abbrev S8x2048x8192 : Shape := ⟨3, ![8, 2048, 8192]⟩
abbrev S8x2048x64 : Shape := ⟨3, ![8, 2048, 64]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x1, .i32⟩
  | .hbm, ⟨1, _⟩ => ⟨S8x8192x1, .i32⟩
  | .hbm, ⟨2, _⟩ => ⟨S8x8192x64, .f32⟩
  | .hbm, ⟨3, _⟩ => ⟨S8x2048, .i32⟩
  | .hbm, ⟨4, _⟩ => ⟨S8x8192, .i32⟩
  | .hbm, ⟨5, _⟩ => ⟨S8x2048x1, .i32⟩
  | .hbm, ⟨6, _⟩ => ⟨S8x1x8192, .i32⟩
  | .hbm, ⟨7, _⟩ => ⟨S8x2048x8192, .i32⟩
  | .hbm, ⟨8, _⟩ => ⟨S8x2048x8192, .i32⟩
  | .hbm, ⟨9, _⟩ => ⟨S8x2048x8192, .i1⟩
  | .hbm, ⟨10, _⟩ => ⟨S8x2048x8192, .f32⟩
  | .hbm, ⟨11, _⟩ => ⟨S8x2048x64, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x64, .f32⟩
  | .hbm, ⟨19, _⟩ => ⟨S8x2048x64, .f32⟩
  | _, _ => ⟨S8x2048x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S8x2048x1_S8x2048 : S8x2048x1.ShapeCasts S8x2048
  shapeCasts_S8x8192x1_S8x8192 : S8x8192x1.ShapeCasts S8x8192
  bcast_S8x2048_S8x2048x1_0_1 : S8x2048.BroadcastsInDim S8x2048x1 (![0, 1] : Fin 2 → Fin S8x2048x1.rank)
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  reducesTo_S8x2048x8192_S8x2048_d2 : S8x2048x8192.ReducesTo [2] S8x2048
  h_S_ : 0 < S_.numel
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  dot_S8x2048x8192_S8x8192x64_S8x2048x64_2_1_1_2_0_0_wf : DotDims.WF S8x2048x8192 S8x8192x64 S8x2048x64 [2] [1] [1] [2] [0] [0]

variable [Facts₀]

def dot_S8x2048x8192_S8x8192x64_S8x2048x64_2_1_1_2_0_0 : DotDims S8x2048x8192 S8x8192x64 S8x2048x64 where
  lhsContracting := [2]
  rhsContracting := [1]
  lhsNonContracting := [1]
  rhsNonContracting := [2]
  lhsBatch := [0]
  rhsBatch := [0]
  wf := dot_S8x2048x8192_S8x8192x64_S8x2048x64_2_1_1_2_0_0_wf

class Facts : Prop extends Facts₀ where

variable [Facts]
-- ==== Proof.Spec.lean ====
/-
  Mean pooling of source rows onto target slots by matching integer labels: the specification.

  For each batch b, target slot n and channel c, the result is the sum of the source rows m whose label equals the
  target's label, divided by a small constant plus the number of such rows:

      out (b, n, c) = (∑ m, [it (b, n) = isrc (b, m)] * arr (b, m, c)) / (ε + ∑ m, [it (b, n) = isrc (b, m)])

  on the extended reals, where [·] is 1 on equal labels and 0 otherwise, and ε is the value of one fixed binary32
  word. The quotient is the ideal instance's division, left unopened: both programs apply it to the same two
  numbers. This module also says how the two spellings of the indicator (a signed conversion of the widened
  one-bit comparison; an unsigned conversion of the comparison itself) read on the extended reals, and that the
  sum over the 8192 source rows is the sum over four consecutive runs of 2048 rows.
-/
import Idealize.ShloMosaic.PureOps.Ideal.Laws
import Idealize.ShloMosaic.Lib.ValueIdx

noncomputable section

open scoped BigOperators

namespace SegMean

open Idealize.ShloMosaic Idealize.ShloMosaic.ValueIdx

/-- The indicator of equal labels, as an extended real. -/
def ind (a b : BitVec 32) : EReal := if a = b then 1 else 0

theorem ind_comm (a b : BitVec 32) : ind a b = ind b a := by
  unfold ind
  by_cases h : a = b
  · rw [if_pos h, if_pos h.symm]
  · rw [if_neg h, if_neg (fun h' => h h'.symm)]

/-- The one-bit comparison converted unsigned is the indicator. -/
theorem uitofp_cmpi (a b : BitVec 32) :
    FloatOps.uitofp (F := Ideal) .f32 (IntOp.cmpi .eq a b) = ind a b := by
  show (((IntOp.cmpi .eq a b).toNat : ℝ) : EReal) = ind a b
  unfold ind IntOp.cmpi
  by_cases h : a = b
  · have hb : (a == b) = true := by rw [beq_iff_eq]; exact h
    have e : (BitVec.ofBool true).toNat = 1 := by decide
    rw [if_pos h]; dsimp only; rw [hb, e]; simp
  · have hb : (a == b) = false := by rw [beq_eq_false_iff_ne]; exact h
    have e : (BitVec.ofBool false).toNat = 0 := by decide
    rw [if_neg h]; dsimp only; rw [hb, e]; simp

/-- The one-bit comparison widened by zeros to a word and converted signed is the indicator. -/
theorem sitofp_extui_cmpi (a b : BitVec 32) :
    FloatOps.sitofp (F := Ideal) .f32 ((IntOp.cmpi .eq a b).setWidth 32) = ind a b := by
  show ((((IntOp.cmpi .eq a b).setWidth 32).toInt : ℝ) : EReal) = ind a b
  unfold ind IntOp.cmpi
  by_cases h : a = b
  · have hb : (a == b) = true := by rw [beq_iff_eq]; exact h
    have e : ((BitVec.ofBool true).setWidth 32).toInt = 1 := by decide
    rw [if_pos h]; dsimp only; rw [hb, e]; simp
  · have hb : (a == b) = false := by rw [beq_eq_false_iff_ne]; exact h
    have e : ((BitVec.ofBool false).setWidth 32).toInt = 0 := by decide
    rw [if_neg h]; dsimp only; rw [hb, e]; simp

/-- The small constant added to the count: the value of the binary32 word both programs print. -/
def eps : EReal := Ideal.ofBits .f32 0x2EDBE6FF#32

variable (it : (⟨3, ![8, 2048, 1]⟩ : Shape).Idx → BitVec 32) (isrc : (⟨3, ![8, 8192, 1]⟩ : Shape).Idx → BitVec 32)
  (arr : (⟨3, ![8, 8192, 64]⟩ : Shape).Idx → EReal)

/-- The pooled value of batch `b`, target slot `n`, channel `c`. -/
def pooled (b : Fin 8) (n : Fin 2048) (c : Fin 64) : EReal :=
  Ideal.div (∑ m : Fin 8192, ind (it (ix3 b n (0 : Fin 1))) (isrc (ix3 b m (0 : Fin 1))) * arr (ix3 b m c))
    (eps + ∑ m : Fin 8192, ind (it (ix3 b n (0 : Fin 1))) (isrc (ix3 b m (0 : Fin 1))))

/-- The result array, index by index. -/
def G : (⟨3, ![8, 2048, 64]⟩ : Shape).Idx → EReal := fun i => pooled it isrc arr (i 0) (i 1) (i 2)

theorem G_apply (b : Fin 8) (n : Fin 2048) (c : Fin 64) : G it isrc arr (ix3 b n c) = pooled it isrc arr b n c := rfl

/-- A sum over the 8192 source rows is the sum over four consecutive runs of 2048 rows. -/
theorem sum_runs {M : Type*} [AddCommMonoid M] (f : Fin 8192 → M) :
    ∑ m : Fin 8192, f m
      = ∑ s ∈ Finset.range 4, ∑ k : Fin 2048, f ⟨(2048 * s + k.val) % 8192, Nat.mod_lt _ (by decide)⟩ := by
  rw [Finset.sum_range (fun s => ∑ k : Fin 2048, f ⟨(2048 * s + k.val) % 8192, Nat.mod_lt _ (by decide)⟩),
    ← Fintype.sum_prod_type (f := fun p : Fin 4 × Fin 2048 => f ⟨(2048 * p.1.val + p.2.val) % 8192, Nat.mod_lt _ (by decide)⟩)]
  refine (Fintype.sum_equiv (finProdFinEquiv : Fin 4 × Fin 2048 ≃ Fin (4 * 2048)) _ f fun p => ?_).symm
  refine congrArg f (Fin.ext ?_)
  have h1 := p.1.isLt
  have h2 := p.2.isLt
  show (2048 * p.1.val + p.2.val) % 8192 = p.2.val + 2048 * p.1.val
  omega

end SegMean

end
-- ==== Proof.RefSide.lean ====
/-
  The reference's last stage, at the ideal instance, is the specification function.

  The reference forms, for each batch b, target slot n and source row m, the one-bit comparison of the target's
  label it (b, n) with the source's label isrc (b, m), both read through a reshape that drops the unit axis and
  broadcasts that put it back and then spread the pair over (b, n, m); it converts the bit unsigned, which on the
  extended reals is the indicator [it (b, n) = isrc (b, m)]. The contraction over m of the indicator with arr (b, m, c)
  is the numerator; the sum over m of the indicator, started from the value of the zero word (which is 0, and
  0 + x = x), broadcast back over the channel axis and added to the constant ε, is the denominator; the last stage
  is their quotient. So at the index (b, n, c) the stage reads

      (∑ m, [it (b, n) = isrc (b, m)] * arr (b, m, c)) / (ε + ∑ m, [it (b, n) = isrc (b, m)])

  which is the specification's pooled value. The proof is the chain of reads at an index, the identification of
  each composed index function at a coordinate triple with a coordinate triple (the reshape's row-major arithmetic
  (b * N + n) / N = b and (b * N + n) % N = n for n < N), and the indicator lemma.
-/
import proofs.«115744_j1666447311241_2_alg».proof.Proof.Gen.ReferenceIdeal.Read
import proofs.«115744_j1666447311241_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefSide

open Cert.ReferenceIdeal Cert.ReferenceIdeal.Read Idealize.ShloMosaic Idealize.ShloMosaic.ValueIdx

/-- The target label's index: the reshape and the two broadcasts, composed at (b, n, k), read the target array at (b, n, 0). -/
theorem idx_it (b : Fin 8) (n : Fin 2048) (k : Fin 8192) :
    idx_main_v0 (idx_main_v2 (idx_main_v4 (ix3 b n k))) = ix3 b n (0 : Fin 1) :=
  funext fun a => Fin.ext (by
    have hb : b.val < 8 := b.isLt
    have hn : n.val < 2048 := n.isLt
    match a with
    | ⟨0, _⟩ => show (b.val * 2048 + n.val) / 2048 = b.val; omega
    | ⟨1, _⟩ => show (b.val * 2048 + n.val) / 1 % 2048 = n.val; omega
    | ⟨2, _⟩ => rfl)

/-- The source label's index: the reshape and the two broadcasts, composed at (b, n, k), read the source array at (b, k, 0). -/
theorem idx_isrc (b : Fin 8) (n : Fin 2048) (k : Fin 8192) :
    idx_main_v1 (idx_main_v3 (idx_main_v5 (ix3 b n k))) = ix3 b k (0 : Fin 1) :=
  funext fun a => Fin.ext (by
    have hb : b.val < 8 := b.isLt
    have hk : k.val < 8192 := k.isLt
    match a with
    | ⟨0, _⟩ => show (b.val * 8192 + k.val) / 8192 = b.val; omega
    | ⟨1, _⟩ => show (b.val * 8192 + k.val) / 1 % 8192 = k.val; omega
    | ⟨2, _⟩ => rfl)

/-- The converted comparison at (b, n, k) is the indicator of equal labels. -/
theorem v7_at (x0 : (⟨S8x2048x1, .i32⟩ : BufTy).Contents (Elt Ideal)) (x1 : (⟨S8x8192x1, .i32⟩ : BufTy).Contents (Elt Ideal))
    (b : Fin 8) (n : Fin 2048) (k : Fin 8192) :
    val_main_v7 (F := Ideal) x0 x1 (ix3 b n k) = SegMean.ind (x0 (ix3 b n (0 : Fin 1))) (x1 (ix3 b k (0 : Fin 1))) := by
  rw [val_main_v7_apply, val_main_v6_apply, val_main_v4_apply, val_main_v2_apply, val_main_v0_apply,
    val_main_v5_apply, val_main_v3_apply, val_main_v1_apply, idx_it, idx_isrc]
  exact SegMean.uitofp_cmpi _ _

/-- The contraction's left index at (b, n, c) and row k is (b, n, k). -/
theorem lidx_at (b : Fin 8) (n : Fin 2048) (c : Fin 64) (k : Fin 8192) :
    lidx_main_v8 (ix3 b n c) k = ix3 b n k :=
  funext fun a => Fin.ext (by match a with | ⟨0, _⟩ => rfl | ⟨1, _⟩ => rfl | ⟨2, _⟩ => rfl)

/-- The contraction's right index at (b, n, c) and row k is (b, k, c). -/
theorem ridx_at (b : Fin 8) (n : Fin 2048) (c : Fin 64) (k : Fin 8192) :
    ridx_main_v8 (ix3 b n c) k = ix3 b k c :=
  funext fun a => Fin.ext (by match a with | ⟨0, _⟩ => rfl | ⟨1, _⟩ => rfl | ⟨2, _⟩ => rfl)

/-- The count's index: the two broadcasts and the reduction, composed at (b, n, c) and row k, read (b, n, k). -/
theorem idx_cnt (b : Fin 8) (n : Fin 2048) (c : Fin 64) (k : Fin 8192) :
    idx_main_v9 (idx_main_v10 (idx_main_v13 (ix3 b n c))) k = ix3 b n k :=
  funext fun a => Fin.ext (by match a with | ⟨0, _⟩ => rfl | ⟨1, _⟩ => rfl | ⟨2, _⟩ => rfl)

/-- The numerator at (b, n, c): the indicator-weighted sum of the source rows. -/
theorem v8_at (x0 : (⟨S8x2048x1, .i32⟩ : BufTy).Contents (Elt Ideal)) (x1 : (⟨S8x8192x1, .i32⟩ : BufTy).Contents (Elt Ideal))
    (x2 : (⟨S8x8192x64, .f32⟩ : BufTy).Contents (Elt Ideal)) (b : Fin 8) (n : Fin 2048) (c : Fin 64) :
    val_main_v8 (F := Ideal) x0 x1 x2 (ix3 b n c)
      = ∑ m : Fin 8192, SegMean.ind (x0 (ix3 b n (0 : Fin 1))) (x1 (ix3 b m (0 : Fin 1))) * x2 (ix3 b m c) := by
  rw [val_main_v8_apply]
  refine Finset.sum_congr rfl fun k _ => ?_
  rw [lidx_at, ridx_at, v7_at]

/-- The denominator at (b, n, c): ε plus the number of source rows with the target's label. -/
theorem v13_at (x0 : (⟨S8x2048x1, .i32⟩ : BufTy).Contents (Elt Ideal)) (x1 : (⟨S8x8192x1, .i32⟩ : BufTy).Contents (Elt Ideal))
    (b : Fin 8) (n : Fin 2048) (c : Fin 64) :
    val_main_v13 (F := Ideal) x0 x1 (ix3 b n c)
      = SegMean.eps + ∑ m : Fin 8192, SegMean.ind (x0 (ix3 b n (0 : Fin 1))) (x1 (ix3 b m (0 : Fin 1))) := by
  rw [val_main_v13_apply, val_main_v12_apply, val_main_v11_apply, val_main_cst_0_apply, val_main_v10_apply,
    val_main_v9_apply, val_main_cst_apply, Ideal.addf_def, Ideal.ofBits_def, Ideal.ofBits_def,
    Ideal.ofBits_zero_f32, zero_add]
  unfold SegMean.eps
  refine congrArg (_ + ·) (Finset.sum_congr rfl fun k _ => ?_)
  rw [idx_cnt, v7_at]

/-- The reference's last stage, at the ideal instance, is the specification function of the three argument arrays. -/
theorem ref_is_G (x0 : (⟨S8x2048x1, .i32⟩ : BufTy).Contents (Elt Ideal)) (x1 : (⟨S8x8192x1, .i32⟩ : BufTy).Contents (Elt Ideal))
    (x2 : (⟨S8x8192x64, .f32⟩ : BufTy).Contents (Elt Ideal)) :
    val_main_v14 (F := Ideal) x0 x1 x2 = SegMean.G x0 x1 x2 := by
  funext i
  obtain ⟨b, n, c, rfl⟩ : ∃ (b : Fin 8) (n : Fin 2048) (c : Fin 64), i = ix3 b n c := ⟨i 0, i 1, i 2, eq_ix3 i⟩
  rw [SegMean.G_apply, val_main_v14_apply, v8_at, v13_at, Ideal.hostDivf_def]
  rfl

end Cert.ReferenceIdeal.RefSide

end
-- ==== Proof.Pieces.lean ====
/-
  What each control case of the body leaves behind, as values.

  The body keeps a [65, 2048] accumulator across the four source tiles of a batch. At the first tile it stores the
  zero block, reads it back and stores "accumulator + this tile's product"; at the two middle tiles and at the
  last it stores "what the tile before left + this tile's product"; at the last tile it also reads the finished
  accumulator back and stores the quotient block into the output. Each of these is one covering store through the
  whole buffer, so what the buffer holds afterwards is that store's value, a function of the three input blocks
  and of what the accumulator held before.
-/
import proofs.«115744_j1666447311241_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the accumulator ends at zero block + this tile's product. -/
theorem scratch_A (c : Dev nD) (i : grid0.Coords) (a2 : Memref sig .tc .vmem S1x1x2048 .i32) (h2 : a2.IsWhole) (a3 : Memref sig .tc .vmem S1x2048x1 .i32) (h3 : a3.IsWhole) (a4 : Memref sig .tc .vmem S1x2048x65 .f32) (h4 : a4.IsWhole) (a5 : Memref sig .tc .vmem S1x64x2048 .f32) (h5 : a5.IsWhole) (a6 : Memref sig .tc .vmem S65x2048 .f32) (h6 : a6.IsWhole) (hc0 : cond0_0 i) (hc1 : ¬cond0_1 i)
    (x0 : Vec F S1x1x2048 .i32) (x1 : Vec F S1x2048x1 .i32) (x2 : Vec F S1x2048x65 .f32) :
    sout0_A_0 c i a2 h2 a3 h3 a4 h4 a5 h5 a6 h6 hc0 hc1 x0 x1 x2 = k0_pay2 x1 x0 x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S65x2048) hz2, View.readCov_unit_zero (S := S65x2048) _ hz2]
  simp only [View.readAt_eq_ld, h2.read_unread, h3.read_unread, h4.read_unread, h6.read_unread,
    View.ld_unit_zero (S := S1x2048x1) hz3, View.ld_unit_zero (S := S1x1x2048) hz3,
    View.ld_unit_zero (S := S1x2048x65) hz3, View.ld_unit_zero (S := S65x2048) hz2]

/-- A middle tile: the accumulator ends at what the tile before left + this tile's product. -/
theorem scratch_B (c : Dev nD) (i : grid0.Coords) (a2 : Memref sig .tc .vmem S1x1x2048 .i32) (h2 : a2.IsWhole) (a3 : Memref sig .tc .vmem S1x2048x1 .i32) (h3 : a3.IsWhole) (a4 : Memref sig .tc .vmem S1x2048x65 .f32) (h4 : a4.IsWhole) (a5 : Memref sig .tc .vmem S1x64x2048 .f32) (h5 : a5.IsWhole) (a6 : Memref sig .tc .vmem S65x2048 .f32) (h6 : a6.IsWhole) (hc0 : ¬cond0_0 i) (hc1 : ¬cond0_1 i)
    (x0 : Vec F S1x1x2048 .i32) (x1 : Vec F S1x2048x1 .i32) (x2 : Vec F S1x2048x65 .f32) (xs0 : Vec F S65x2048 .f32) :
    sout0_B_0 c i a2 h2 a3 h3 a4 h4 a5 h5 a6 h6 hc0 hc1 x0 x1 x2 xs0 = k0_pay2 x1 x0 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz2]
  simp only [View.readAt_eq_ld, h2.read_unread, h3.read_unread, h4.read_unread, h6.read_unread,
    View.ld_unit_zero (S := S1x2048x1) hz3, View.ld_unit_zero (S := S1x1x2048) hz3,
    View.ld_unit_zero (S := S1x2048x65) hz3, View.ld_unit_zero (S := S65x2048) hz2]

/-- The last tile: the accumulator likewise, -/
theorem scratch_C (c : Dev nD) (i : grid0.Coords) (a2 : Memref sig .tc .vmem S1x1x2048 .i32) (h2 : a2.IsWhole) (a3 : Memref sig .tc .vmem S1x2048x1 .i32) (h3 : a3.IsWhole) (a4 : Memref sig .tc .vmem S1x2048x65 .f32) (h4 : a4.IsWhole) (a5 : Memref sig .tc .vmem S1x64x2048 .f32) (h5 : a5.IsWhole) (a6 : Memref sig .tc .vmem S65x2048 .f32) (h6 : a6.IsWhole) (hc0 : ¬cond0_0 i) (hc1 : cond0_1 i)
    (x0 : Vec F S1x1x2048 .i32) (x1 : Vec F S1x2048x1 .i32) (x2 : Vec F S1x2048x65 .f32) (xs0 : Vec F S65x2048 .f32) :
    sout0_C_0 c i a2 h2 a3 h3 a4 h4 a5 h5 a6 h6 hc0 hc1 x0 x1 x2 xs0 = k0_pay2 x1 x0 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread,
    View.ld_unit_zero (S := S1x2048x1) hz3, View.ld_unit_zero (S := S1x1x2048) hz3,
    View.ld_unit_zero (S := S1x2048x65) hz3, View.ld_unit_zero (S := S65x2048) hz2]

/-- and the output block is the quotient block of that finished accumulator. -/
theorem out_C (c : Dev nD) (i : grid0.Coords) (a2 : Memref sig .tc .vmem S1x1x2048 .i32) (h2 : a2.IsWhole) (a3 : Memref sig .tc .vmem S1x2048x1 .i32) (h3 : a3.IsWhole) (a4 : Memref sig .tc .vmem S1x2048x65 .f32) (h4 : a4.IsWhole) (a5 : Memref sig .tc .vmem S1x64x2048 .f32) (h5 : a5.IsWhole) (a6 : Memref sig .tc .vmem S65x2048 .f32) (h6 : a6.IsWhole) (hc0 : ¬cond0_0 i) (hc1 : cond0_1 i)
    (x0 : Vec F S1x1x2048 .i32) (x1 : Vec F S1x2048x1 .i32) (x2 : Vec F S1x2048x65 .f32) (xs0 : Vec F S65x2048 .f32) :
    out0_C_3 c i a2 h2 a3 h3 a4 h4 a5 h5 a6 h6 hc0 hc1 x0 x1 x2 xs0 = k0_pay3 (k0_pay2 x1 x0 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S65x2048) _ hz2]
  simp only [View.readAt_eq_ld, h2.read_unread, h3.read_unread, h4.read_unread, h6.read_unread,
    View.ld_unit_zero (S := S1x2048x1) hz3, View.ld_unit_zero (S := S1x1x2048) hz3,
    View.ld_unit_zero (S := S1x2048x65) hz3, View.ld_unit_zero (S := S65x2048) hz2]

end Cert.KernelIdeal.Pieces

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«115744_j1666447311241_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Sums along the feature axis, and the keep-dimension column forms, read at an entry.

  A tile with nodes down its rows and features across its columns is reduced along axis 1: the result at row p is
  the sum of that row's b entries. On the extended reals the reduction from the zero accumulator is that plain
  sum. A per-row statistic is then kept as a one-column matrix: a length-a vector cast to [a, 1] reads its entry
  p at (p, 0), and the column broadcast across b columns reads (p, 0) at every (p, c). Every extent is generic.
-/
import Idealize.ShloMosaic.PureOps.Ideal.Laws
import Idealize.ShloMosaic.Lib.ValueIdx
import Idealize.ShloMosaic.Lib.Pipeline.Value

namespace RowOps

open Idealize.ShloMosaic Idealize.ShloMosaic.ValueIdx

variable {a b : ℕ}

/-- Row p with the feature coordinate k put back on axis 1 is the entry (p, k). -/
theorem lift_row (h : Shape.Reduces ⟨2, ![a, b]⟩ [1] ⟨1, ![a]⟩) (p : Fin a) (k : Fin b) :
    h.lift (ix1 p) k = ix2 p k := by
  funext d
  apply Fin.ext
  match d with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- A sum along axis 1 from the zero accumulator, at row p: the sum of the row's b entries. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_row h p k)

variable {α : Type}

/-- A length-a vector cast to the column [a, 1] reads, at (p, u), the vector's entry p. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast over [a, b] reads, at (p, c), the column's entry (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end RowOps
-- ==== Proof.Pay.lean ====
/-
  The body's three stored values, read at an entry, on the extended reals.

  Blocks: `x1` is the tile's 2048 source labels (a [1, 2048, 1] block), `x0` the batch's 2048 target labels (a
  [1, 1, 2048] block), `x2` the tile's 2048 source rows with the appended ones column (a [1, 2048, 65] block), and
  `acc` the [65, 2048] accumulator: row p < 64 is channel p, row 64 the count; column q is target slot q.

  * The reset value is zero everywhere.
  * The accumulate step adds, at (p, q), the tile's sum over its rows k of x2 (k, p) * [x1 k = x0 q]: the matrix
    unit multiplies the transposed tile by the 0/1 mask, a change of float format being the identity here.
  * The finishing step divides channel row c by "ε + the count row", column by column.
-/
import proofs.«115744_j1666447311241_2_alg».proof.Proof.Gen.KernelIdeal.Skeleton
import proofs.«115744_j1666447311241_2_alg».proof.Proof.Spec
import proofs.«115744_j1666447311241_2_alg».proof.Proof.LibDotRecord
import proofs.«115744_j1666447311241_2_alg».proof.Proof.LibRowOps
import Idealize.ShloMosaic.Lib.ValueLayout
import Idealize.ShloMosaic.Lib.Pipeline.Value

noncomputable section

open scoped BigOperators
open Idealize.ShloMosaic Idealize.ShloMosaic.ValueIdx

namespace Cert.KernelIdeal.Pay

open Cert.KernelIdeal Cert.KernelIdeal.Gen

/-- The reset value: zero at every entry. -/
theorem reset_apply (p : Fin 65) (q : Fin 2048) : k0_pay1 (F := Ideal) (ix2 p q) = 0 := by
  unfold k0_pay1
  refine (congrFun (shapeCast_self _ _) _).trans ?_
  exact Ideal.ofBits_zero_f32

/-- The tile's contribution at accumulator entry (p, q). -/
def tile (x1 : Vec Ideal S1x2048x1 .i32) (x0 : Vec Ideal S1x1x2048 .i32) (x2 : Vec Ideal S1x2048x65 .f32)
    (p : Fin 65) (q : Fin 2048) : EReal :=
  ∑ k : Fin 2048, x2 (ix3 (0 : Fin 1) k p) * SegMean.ind (x1 (ix3 (0 : Fin 1) k (0 : Fin 1))) (x0 (ix3 (0 : Fin 1) (0 : Fin 1) q))

/-- The mask entry (k, q): the indicator of "source label k of the tile = target label q". -/
theorem mask_apply (x1 : Vec Ideal S1x2048x1 .i32) (x0 : Vec Ideal S1x1x2048 .i32) (k q : Fin 2048) :
    (truncf .bf16 (sitofp (F := Ideal) .f32 (extui 32 (cmpi .eq
        (broadcastTo S2048x2048 (shapeCast S2048x1 x1 shapeCasts_S1x2048x1_S2048x1) broadcasts_S2048x1_S2048x2048)
        (broadcastTo S2048x2048 (shapeCast S1x2048 x0 shapeCasts_S1x1x2048_S1x2048) broadcasts_S1x2048_S2048x2048))
        natLt_1_32)) bitsLt_bf16_f32 : FVec Ideal S2048x2048 .bf16) (ix2 k q)
      = SegMean.ind (x1 (ix3 (0 : Fin 1) k (0 : Fin 1))) (x0 (ix3 (0 : Fin 1) (0 : Fin 1) q)) := by
  have e1 : broadcastTo S2048x2048 (shapeCast S2048x1 x1 shapeCasts_S1x2048x1_S2048x1) broadcasts_S2048x1_S2048x2048 (ix2 k q)
      = x1 (ix3 (0 : Fin 1) k (0 : Fin 1)) :=
    (RowOps.broadcastTo_a1_ab_apply _ broadcasts_S2048x1_S2048x2048 k q).trans
      (shapeCast_1ab_ab_apply x1 shapeCasts_S1x2048x1_S2048x1 k (0 : Fin 1))
  have e0 : broadcastTo S2048x2048 (shapeCast S1x2048 x0 shapeCasts_S1x1x2048_S1x2048) broadcasts_S1x2048_S2048x2048 (ix2 k q)
      = x0 (ix3 (0 : Fin 1) (0 : Fin 1) q) :=
    (broadcastTo_1b_ab_apply _ broadcasts_S1x2048_S2048x2048 k q).trans
      (shapeCast_1ab_ab_apply x0 shapeCasts_S1x1x2048_S1x2048 (0 : Fin 1) q)
  show FloatOps.sitofp (F := Ideal) .f32 ((IntOp.cmpi .eq
      (broadcastTo S2048x2048 (shapeCast S2048x1 x1 shapeCasts_S1x2048x1_S2048x1) broadcasts_S2048x1_S2048x2048 (ix2 k q))
      (broadcastTo S2048x2048 (shapeCast S1x2048 x0 shapeCasts_S1x1x2048_S1x2048) broadcasts_S1x2048_S2048x2048 (ix2 k q))).setWidth 32) = _
  rw [e1, e0]
  exact SegMean.sitofp_extui_cmpi _ _

/-- The transposed tile at (p, k): the tile's row k, column p. -/
theorem tileT_apply (x2 : Vec Ideal S1x2048x65 .f32) (p : Fin 65) (k : Fin 2048) :
    (transpose S65x2048 [1, 0] (truncf .bf16 (shapeCast S2048x65 x2 shapeCasts_S1x2048x65_S2048x65) bitsLt_bf16_f32 : FVec Ideal S2048x65 .bf16)
        transposes_S2048x65_p1_0_S65x2048) (ix2 p k) = x2 (ix3 (0 : Fin 1) k p) :=
  (transpose_ix2_apply _ transposes_S2048x65_p1_0_S65x2048 p k).trans
    (shapeCast_1ab_ab_apply x2 shapeCasts_S1x2048x65_S2048x65 k p)

/-- The accumulate step at (p, q): what the accumulator held plus the tile's contribution. -/
theorem accumulate_apply (x1 : Vec Ideal S1x2048x1 .i32) (x0 : Vec Ideal S1x1x2048 .i32) (x2 : Vec Ideal S1x2048x65 .f32)
    (acc : Vec Ideal S65x2048 .f32) (p : Fin 65) (q : Fin 2048) :
    k0_pay2 x1 x0 x2 acc (ix2 p q) = acc (ix2 p q) + tile x1 x0 x2 p q := by
  unfold k0_pay2
  refine (congrFun (shapeCast_self _ _) _).trans ?_
  refine congrArg (acc (ix2 p q) + ·) ?_
  refine (DotRecord.matmul_zero_apply dot_S65x2048_S2048x2048_S65x2048_1_0_0_1_n_n rfl rfl rfl rfl rfl rfl _ _ none p q).trans ?_
  unfold tile
  refine Finset.sum_congr rfl fun k _ => ?_
  rw [tileT_apply, mask_apply]

/-- The finishing step at (0, c, q): channel row c over "ε + the count row", at column q. -/
theorem finish_apply (acc : Vec Ideal S65x2048 .f32) (c : Fin 64) (q : Fin 2048) :
    k0_pay3 acc (ix3 (0 : Fin 1) c q)
      = Ideal.div (acc (ix2 (⟨c.val, by omega⟩ : Fin 65) q)) (SegMean.eps + acc (ix2 (⟨64, by omega⟩ : Fin 65) q)) := by
  unfold k0_pay3
  refine (shapeCast_ab_1ab_apply _ shapeCasts_S64x2048_S1x64x2048 (0 : Fin 1) c q).trans ?_
  show Ideal.div (extractStridedSlice S64x2048 ![0, 0] acc slices_S65x2048_o0_0_S64x2048 (ix2 c q))
    (broadcastTo S64x2048 (addf (broadcast S1x2048 (Scalar.ofBits (F := Ideal) .f32 0x2EDBE6FF#32))
      (extractStridedSlice S1x2048 ![64, 0] acc slices_S65x2048_o64_0_S1x2048)) broadcasts_S1x2048_S64x2048 (ix2 c q)) = _
  rw [slice2_axis0_apply 0 acc slices_S65x2048_o0_0_S64x2048 c q ⟨c.val, by omega⟩ (by simp),
    broadcastTo_1b_ab_apply _ broadcasts_S1x2048_S64x2048 c q]
  show Ideal.div _ (SegMean.eps + extractStridedSlice S1x2048 ![64, 0] acc slices_S65x2048_o64_0_S1x2048 (ix2 (0 : Fin 1) q)) = _
  rw [slice2_axis0_apply 64 acc slices_S65x2048_o64_0_S1x2048 (0 : Fin 1) q ⟨64, by omega⟩ (by simp)]

end Cert.KernelIdeal.Pay

end
-- ==== Proof.Accum.lean ====
/-
  The accumulator, point by point.

  The grid has 32 points: point t works on batch t / 4 and source tile t % 4 (rows 2048 (t % 4) … 2048 (t % 4) + 2047
  of the batch's 8192). Its three input blocks are read off the arrays the region finds: the batch's transposed
  target labels, the tile's source labels, the tile's rows of the augmented source array. The tile's contribution
  to accumulator entry (p, q) is the sum over the tile's rows of "row entry p times [row's label = target label q]";
  after point t the accumulator holds the sum of the contributions of the batch's tiles 0 … t % 4 — by induction on
  the point, the first tile of a batch starting from zero. At the last tile of a batch the output block is the
  quotient of channel row by "ε + count row" of that finished accumulator.
-/
import proofs.«115744_j1666447311241_2_alg».proof.Proof.Gen.KernelIdeal.Frame
import proofs.«115744_j1666447311241_2_alg».proof.Proof.Pieces
import proofs.«115744_j1666447311241_2_alg».proof.Proof.Pay

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ)

/-- The printed index maps, decided over the grid: point t is tile t % 4 of batch t / 4. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The batch of point n. -/
abbrev batchOf (n : ℕ) : Fin 8 := ⟨n / 4 % 8, Nat.mod_lt _ (by decide)⟩
/-- Row k of point n's tile, among the batch's 8192 source rows. -/
abbrev rowOf (n : ℕ) (k : Fin 2048) : Fin 8192 := ⟨2048 * (n % 4) + k.val, by have := k.isLt; omega⟩

/-- The batch's target labels, transposed, as the region finds them. -/
abbrev labelsT (c : Dev nD) : S8x1x2048.Idx → BitVec 32 := V m c main_v0
/-- The source labels as the region finds them. -/
abbrev labelsS (c : Dev nD) : S8x8192x1.Idx → BitVec 32 := V m c main_arg1
/-- The source array with the ones column appended, as the region finds it. -/
abbrev aug (c : Dev nD) : S8x8192x65.Idx → EReal := V m c main_v2

/-- Point n's contribution to accumulator entry (p, q). -/
def contrib (c : Dev nD) (n : ℕ) (p : Fin 65) (q : Fin 2048) : EReal :=
  ∑ k : Fin 2048, aug m c (ix3 (batchOf n) (rowOf n k) p)
    * SegMean.ind (labelsS m c (ix3 (batchOf n) (rowOf n k) (0 : Fin 1))) (labelsT m c (ix3 (batchOf n) (0 : Fin 1) q))

/-- Window 0's block at point t: the batch's transposed target labels. -/
theorem block0_apply (c : Dev nD) (t : Fin cfg0.N) (q : Fin 2048) :
    (iblk m c 0 t : Vec Ideal S1x1x2048 .i32) (ix3 (0 : Fin 1) (0 : Fin 1) q) = labelsT m c (ix3 (batchOf t.val) (0 : Fin 1) q) := by
  obtain ⟨e0, e1, e2, -⟩ := idx_facts t
  have hN : t.val < 32 := lt_of_lt_of_eq t.isLt N_0
  unfold iblk
  rw [View.read_apply]
  show (V m c main_v0 : S8x1x2048.Idx → BitVec 32) (((cfg0.win 0).blk t).view.emb (ix3 (0 : Fin 1) (0 : Fin 1) q)) = _
  refine congrArg _ (funext fun a => Fin.ext ?_)
  match a with
  | ⟨0, _⟩ => show win0_0.index t (0 : Fin 3) * 1 + 1 * 0 = t.val / 4 % 8; omega
  | ⟨1, _⟩ => show win0_0.index t (1 : Fin 3) * 1 + 1 * 0 = 0; omega
  | ⟨2, _⟩ => show win0_0.index t (2 : Fin 3) * 2048 + 1 * q.val = q.val; omega

/-- Window 1's block at point t: the tile's source labels. -/
theorem block1_apply (c : Dev nD) (t : Fin cfg0.N) (k : Fin 2048) :
    (iblk m c 1 t : Vec Ideal S1x2048x1 .i32) (ix3 (0 : Fin 1) k (0 : Fin 1)) = labelsS m c (ix3 (batchOf t.val) (rowOf t.val k) (0 : Fin 1)) := by
  obtain ⟨-, -, -, e0, e1, e2, -⟩ := idx_facts t
  have hN : t.val < 32 := lt_of_lt_of_eq t.isLt N_0
  have hk := k.isLt
  unfold iblk
  rw [View.read_apply]
  show (V m c main_arg1 : S8x8192x1.Idx → BitVec 32) (((cfg0.win 1).blk t).view.emb (ix3 (0 : Fin 1) k (0 : Fin 1))) = _
  refine congrArg _ (funext fun a => Fin.ext ?_)
  match a with
  | ⟨0, _⟩ => show win0_1.index t (0 : Fin 3) * 1 + 1 * 0 = t.val / 4 % 8; omega
  | ⟨1, _⟩ => show win0_1.index t (1 : Fin 3) * 2048 + 1 * k.val = 2048 * (t.val % 4) + k.val; omega
  | ⟨2, _⟩ => show win0_1.index t (2 : Fin 3) * 1 + 1 * 0 = 0; omega

/-- Window 2's block at point t: the tile's rows of the augmented source array. -/
theorem block2_apply (c : Dev nD) (t : Fin cfg0.N) (k : Fin 2048) (p : Fin 65) :
    (iblk m c 2 t : Vec Ideal S1x2048x65 .f32) (ix3 (0 : Fin 1) k p) = aug m c (ix3 (batchOf t.val) (rowOf t.val k) p) := by
  obtain ⟨-, -, -, -, -, -, e0, e1, e2, -⟩ := idx_facts t
  have hN : t.val < 32 := lt_of_lt_of_eq t.isLt N_0
  have hk := k.isLt
  unfold iblk
  rw [View.read_apply]
  show (V m c main_v2 : S8x8192x65.Idx → EReal) (((cfg0.win 2).blk t).view.emb (ix3 (0 : Fin 1) k p)) = _
  refine congrArg _ (funext fun a => Fin.ext ?_)
  match a with
  | ⟨0, _⟩ => show win0_2.index t (0 : Fin 3) * 1 + 1 * 0 = t.val / 4 % 8; omega
  | ⟨1, _⟩ => show win0_2.index t (1 : Fin 3) * 2048 + 1 * k.val = 2048 * (t.val % 4) + k.val; omega
  | ⟨2, _⟩ => show win0_2.index t (2 : Fin 3) * 65 + 1 * p.val = p.val; omega

/-- The tile term of point t's blocks is point t's contribution. -/
theorem tile_eq (c : Dev nD) (t : Fin cfg0.N) (p : Fin 65) (q : Fin 2048) :
    Pay.tile (iblk m c 1 t) (iblk m c 0 t) (iblk m c 2 t) p q = contrib m c t.val p q := by
  unfold Pay.tile contrib
  refine Finset.sum_congr rfl fun k _ => ?_
  rw [block2_apply m c t k p, block1_apply m c t k, block0_apply m c t q]

/-- After the first tile of a batch the accumulator holds that tile's contribution. -/
theorem scratch_first (c : Dev nD) (t : Fin cfg0.N) (h0 : t.val % 4 = 0) (p : Fin 65) (q : Fin 2048) :
    (outsAt0 m c t.val t.isLt).2 (ix2 p q) = contrib m c t.val p q := by
  have h1 : ¬t.val % 4 = 3 := by omega
  rw [outsAt0_A m c t h0 h1]
  dsimp only
  refine (congrFun (Pieces.scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (Pay.accumulate_apply (iblk m c 1 t) (iblk m c 0 t) (iblk m c 2 t) (k0_pay1 (F := Ideal)) p q).trans ?_
  rw [Pay.reset_apply, zero_add]
  exact tile_eq m c t p q

/-- After a later tile it holds what the tile before left plus this tile's contribution. -/
theorem scratch_next (c : Dev nD) (t : Fin cfg0.N) (h0 : ¬t.val % 4 = 0) (p : Fin 65) (q : Fin 2048) :
    (outsAt0 m c t.val t.isLt).2 (ix2 p q)
      = (outsAt0 m c (t.val - 1) (Nat.lt_of_le_of_lt (Nat.sub_le _ _) t.isLt)).2 (ix2 p q) + contrib m c t.val p q := by
  by_cases h1 : t.val % 4 = 3
  · rw [outsAt0_C m c t h0 h1]
    dsimp only
    refine (congrFun (Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    refine (Pay.accumulate_apply (iblk m c 1 t) (iblk m c 0 t) (iblk m c 2 t) _ p q).trans ?_
    rw [tile_eq m c t p q]
  · rw [outsAt0_B m c t h0 h1]
    dsimp only
    refine (congrFun (Pieces.scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    refine (Pay.accumulate_apply (iblk m c 1 t) (iblk m c 0 t) (iblk m c 2 t) _ p q).trans ?_
    rw [tile_eq m c t p q]

/-- THE ACCUMULATOR after point n: the contributions of the batch's tiles 0 … n % 4. -/
theorem scratch_eq (c : Dev nD) (n : ℕ) : ∀ (h : n < cfg0.N) (p : Fin 65) (q : Fin 2048),
    (outsAt0 m c n h).2 (ix2 p q) = ∑ s ∈ Finset.range (n % 4 + 1), contrib m c (4 * (n / 4) + s) p q := by
  induction n using Nat.strong_induction_on with
  | _ n ih =>
    intro h p q
    by_cases h0 : n % 4 = 0
    · refine (scratch_first m c ⟨n, h⟩ h0 p q).trans ?_
      have e : 4 * (n / 4) + 0 = n := by omega
      rw [h0, Finset.sum_range_one, e]
    · have e1 : n % 4 = (n - 1) % 4 + 1 := by omega
      have e2 : n / 4 = (n - 1) / 4 := by omega
      have e3 : 4 * ((n - 1) / 4) + ((n - 1) % 4 + 1) = n := by omega
      refine (scratch_next m c ⟨n, h⟩ h0 p q).trans ?_
      refine (congrArg (· + contrib m c n p q) (ih (n - 1) (by omega) (Nat.lt_of_le_of_lt (Nat.sub_le _ _) h) p q)).trans ?_
      rw [e1, e2, Finset.sum_range_succ _ ((n - 1) % 4 + 1), e3]

/-- At the last tile of a batch the output block is the quotient block of the finished accumulator. -/
theorem out_last (c : Dev nD) (t : Fin cfg0.N) (h1 : t.val % 4 = 3) (ch : Fin 64) (q : Fin 2048) :
    (outsAt0 m c t.val t.isLt).1 (ix3 (0 : Fin 1) ch q)
      = Ideal.div ((outsAt0 m c t.val t.isLt).2 (ix2 (⟨ch.val, by omega⟩ : Fin 65) q))
          (SegMean.eps + (outsAt0 m c t.val t.isLt).2 (ix2 (⟨64, by omega⟩ : Fin 65) q)) := by
  have h0 : ¬t.val % 4 = 0 := by omega
  rw [outsAt0_C m c t h0 h1]
  dsimp only
  rw [Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
    Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  exact Pay.finish_apply _ ch q

end Cert.KernelIdeal.Accum

end
-- ==== Proof.Final.lean ====
/-
  The kernel's result, as one function of the arrays the region finds.

  The output window's block for batch b is written back once, after the batch's last tile (points 3, 7, …, 31), and
  the eight blocks tile the [8, 64, 2048] array. So after the run that array holds, at (b, ch, q), the quotient of the
  finished accumulator's channel row ch by "ε + its count row" at column q, the finished accumulator being the sum
  of the four tiles' contributions. The one host line after the region swaps the last two axes: the program's result
  at (b, n, ch) is that quotient at (b, ch, n).
-/
import proofs.«115744_j1666447311241_2_alg».proof.Proof.Accum
import Idealize.ShloMosaic.Lib.StableHlo.Run
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum

variable (m : (ℓ : Loc nD τ sig) → Buf (Elt Ideal) ℓ) (ρ : Dev nD → PrngReg)

/-- The finished accumulator of batch b at (p, q): the four tiles' contributions. -/
def total (c : Dev nD) (b : Fin 8) (p : Fin 65) (q : Fin 2048) : EReal :=
  ∑ s ∈ Finset.range 4, contrib m c (4 * b.val + s) p q

/-- The pooled value of batch b, channel ch, target slot q, as the kernel forms it. -/
def quotAt (c : Dev nD) (b : Fin 8) (ch : Fin 64) (q : Fin 2048) : EReal :=
  Ideal.div (total m c b ⟨ch.val, by omega⟩ q) (SegMean.eps + total m c b ⟨64, by omega⟩ q)

/-- The region's result array, entry by entry. -/
def quot (c : Dev nD) : S8x64x2048.Idx → EReal := fun i => quotAt m c (i 0) (i 1) (i 2)

/-- What the point after a batch's last tile writes back is that batch's block of `quot`. -/
theorem flushed_eq (c : Dev nD) (t : Fin cfg0.N) (hf : (cfg0.win 3).flush t = true) :
    (dats m 0 c).flushed 3 t = ((cfg0.win 3).blk t).view.read (Elt Ideal) (quot m c) := by
  have h3 : t.val % 4 = 3 := (flush0_3 t).mp hf
  have hN : t.val < 32 := lt_of_lt_of_eq t.isLt N_0
  obtain ⟨-, -, -, -, -, -, -, -, -, e0, e1, e2⟩ := idx_facts t
  show (cfg0.win 3).cut (grid0.coords t) ((dats m 0 c).after 3 t) = _
  rw [after0_3]
  funext y
  obtain ⟨u, ch, q, rfl⟩ : ∃ (u : Fin 1) (ch : Fin 64) (q : Fin 2048), y = ix3 u ch q := ⟨y 0, y 1, y 2, eq_ix3 y⟩
  obtain rfl : u = 0 := Subsingleton.elim _ _
  rw [View.read_apply]
  have hemb : ((cfg0.win 3).blk t).view.emb (ix3 (0 : Fin 1) ch q) = ix3 (batchOf t.val) ch q :=
    funext fun a => Fin.ext (by
      have hc := ch.isLt
      have hq := q.isLt
      match a with
      | ⟨0, _⟩ => show win0_3.index t (0 : Fin 3) * 1 + 1 * 0 = t.val / 4 % 8; omega
      | ⟨1, _⟩ => show win0_3.index t (1 : Fin 3) * 64 + 1 * ch.val = ch.val; omega
      | ⟨2, _⟩ => show win0_3.index t (2 : Fin 3) * 2048 + 1 * q.val = q.val; omega)
  rw [hemb]
  show (outsAt0 m c t.val t.isLt).1 (ix3 (0 : Fin 1) ch q) = quotAt m c (batchOf t.val) ch q
  rw [out_last m c t h3 ch q, scratch_eq m c t.val t.isLt _ q, scratch_eq m c t.val t.isLt _ q]
  unfold quotAt total
  have e4 : t.val % 4 + 1 = 4 := by omega
  have e5 : (batchOf t.val).val = t.val / 4 := by show t.val / 4 % 8 = t.val / 4; omega
  rw [e4, e5]

/-- An index of the array is in point t's block iff each coordinate is in the block's range on its axis. -/
theorem mem_blk (t : Fin cfg0.N) (i : S8x64x2048.Idx) :
    i ∈ ((cfg0.win 3).blk t).view.set ↔ ∀ a : Fin 3, win0_3.index t a * S1x64x2048.size a ≤ (i a).val ∧ (i a).val < win0_3.index t a * S1x64x2048.size a + S1x64x2048.size a := by
  show i ∈ ((View.whole main_v3).slice (win0_3.rect t)).set ↔ _
  rw [View.set_slice_whole, Rect.mem_set_unit]
  exact Iff.rfl

/-- Every entry (b, ch, q) is in the block written back after batch b's last tile. -/
theorem cover (i : S8x64x2048.Idx) :
    ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 2048 := (i 2).isLt
  have hlt : 4 * (i 0).val + 3 < cfg0.N := lt_of_lt_of_eq (by omega : 4 * (i 0).val + 3 < 32) N_0.symm
  refine ⟨⟨4 * (i 0).val + 3, hlt⟩, (flush0_3 _).mpr (by show (4 * (i 0).val + 3) % 4 = 3; omega), ?_⟩
  rw [mem_blk]
  obtain ⟨-, -, -, -, -, -, -, -, -, e0, e1, e2⟩ := idx_facts ⟨4 * (i 0).val + 3, hlt⟩
  have e0' : win0_3.index ⟨4 * (i 0).val + 3, hlt⟩ (0 : Fin 3) = (4 * (i 0).val + 3) / 4 := e0
  intro a
  match a with
  | ⟨0, _⟩ =>
    show win0_3.index ⟨4 * (i 0).val + 3, hlt⟩ (0 : Fin 3) * 1 ≤ (i 0).val ∧ (i 0).val < win0_3.index ⟨4 * (i 0).val + 3, hlt⟩ (0 : Fin 3) * 1 + 1
    omega
  | ⟨1, _⟩ =>
    show win0_3.index ⟨4 * (i 0).val + 3, hlt⟩ (1 : Fin 3) * 64 ≤ (i 1).val ∧ (i 1).val < win0_3.index ⟨4 * (i 0).val + 3, hlt⟩ (1 : Fin 3) * 64 + 64
    omega
  | ⟨2, _⟩ =>
    show win0_3.index ⟨4 * (i 0).val + 3, hlt⟩ (2 : Fin 3) * 2048 ≤ (i 2).val ∧ (i 2).val < win0_3.index ⟨4 * (i 0).val + 3, hlt⟩ (2 : Fin 3) * 2048 + 2048
    omega

/-- The region's result array after the run. -/
theorem final (c : Dev nD) : (dats m 0 c).arrAt 3 cfg0.N = quot m c :=
  (dats m 0 c).arrAt_eq_of_cover 3 (quot m c) (flushed_eq m c) cover

/-- The program's result: the region's array with its last two axes swapped. -/
def result (c : Dev nD) : S8x2048x64.Idx → EReal := fun i => quotAt m c (i 0) (i 2) (i 1)

theorem result_apply (c : Dev nD) (b : Fin 8) (n : Fin 2048) (ch : Fin 64) :
    result m c (ix3 b n ch) = quotAt m c b ch n := rfl

/-- The host line after the region leaves the program's result. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v3)
      = quot m c :=
    (Pipeline.withArrays_arr spec0 launch0.win.arr_inj c _ _ 3).trans (final m c)
  rw [hA]
  funext i
  obtain ⟨b, n, ch, rfl⟩ : ∃ (b : Fin 8) (n : Fin 2048) (ch : Fin 64), i = ix3 b n ch := ⟨i 0, i 1, i 2, eq_ix3 i⟩
  exact transpose_ix3_021_apply (quot m c) _ b n ch

/-- THE KERNEL'S RUN, read: every weakly fair execution terminates with the result array at `result` and the three
    argument arrays as launched. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.Head.lean ====
/-
  What the kernel's one region finds in the two arrays the host lines before it prepare, read entry by entry in
  terms of the launch contents of the argument arrays.

  Before the region, the host lines transpose the target labels, an array of extents [8, 2048, 1], to extents
  [8, 1, 2048]; and they append a column of ones to the source array of extents [8, 8192, 64] along its last axis,
  giving an array of extents [8, 8192, 65]. Hence:
  * the transposed labels at (b, 0, q) are the labels at (b, q, 0);
  * the augmented array at (b, r, p) is the source array at (b, r, p) when p < 64;
  * the augmented array at (b, r, 64) is the extended real 1: the appended column is a broadcast of the constant whose
    32-bit word is the single-precision 1.0, and at the ideal instance that word denotes 1.
-/
import proofs.«115744_j1666447311241_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Head

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The 32-bit word of the single-precision 1.0 denotes the extended real 1. -/
theorem ofBits_one_f32 : Ideal.ofBits .f32 0x3F800000#32 = 1 := by
  simp [Ideal.ofBits, Ideal.ieee, -EReal.coe_mul]; norm_num

/-- The region finds in the transposed-labels array the transpose of the labels as launched. -/
theorem V_main_v0 (c : Dev nD) :
    (V m c main_v0 : S8x1x2048.Idx → BitVec 32)
      = transpose S8x1x2048 [0, 2, 1] (m ((c : Thread nD τ).loc main_arg0)) Facts₀.transposes_S8x2048x1_S8x1x2048_0_2_1 := by
  show StableHlo.after hostOps0 (fun b => m (c, b)) (Proc.devRef .tc main_v0) = _
  after_results

/-- The region finds in the augmented array the source array as launched with a column of the constant appended. -/
theorem V_main_v2 (c : Dev nD) :
    (V m c main_v2 : S8x8192x65.Idx → EReal)
      = concatenate S8x8192x65 2
          [⟨S8x8192x64, m ((c : Thread nD τ).loc main_arg2)⟩,
           ⟨S8x8192x1, broadcastInDim S8x8192x1 ![] Facts₀.bcast_S_S8x8192x1 (constant (F := Ideal) S_ .f32 0x3F800000#32)⟩]
          Facts₀.concatenates_S8x8192x64_S8x8192x1_S8x8192x65_d2 := by
  show StableHlo.after hostOps0 (fun b => m (c, b)) (Proc.devRef .tc main_v2) = _
  after_results

/-- The transposed labels at (b, 0, q) are the labels at (b, q, 0). -/
theorem V_labels (c : Dev nD) (b : Fin 8) (q : Fin 2048) :
    V m c main_v0 (ix3 b (0 : Fin 1) q) = m ((c : Thread nD τ).loc main_arg0) (ix3 b q (0 : Fin 1)) := by
  refine (congrFun (V_main_v0 m c) (ix3 b (0 : Fin 1) q)).trans ?_
  exact transpose_apply [0, 2, 1] _ _ (ix3 b (0 : Fin 1) q) (ix3 b q (0 : Fin 1))
    (fun a => match a with | ⟨0, _⟩ => rfl | ⟨1, _⟩ => rfl | ⟨2, _⟩ => rfl)

/-- Below the appended column, the augmented array at (b, r, p) is the source array at (b, r, p). -/
theorem V_aug_data (c : Dev nD) (b : Fin 8) (r : Fin 8192) (p : Fin 65) (hp : p.val < 64) :
    V m c main_v2 (ix3 b r p) = m ((c : Thread nD τ).loc main_arg2) (ix3 b r ⟨p.val, hp⟩) := by
  refine (congrFun (V_main_v2 m c) (ix3 b r p)).trans ?_
  exact concatenate_pair_apply_left (t := S8x8192x65) (s₁ := S8x8192x64) (s₂ := S8x8192x1) (2 : Fin 3) _ _ _ (ix3 b r p) rfl (ix3 b r ⟨p.val, hp⟩)
    (fun a => match a with | ⟨0, _⟩ => rfl | ⟨1, _⟩ => rfl | ⟨2, _⟩ => rfl)

/-- In the appended column, p = 64, the augmented array holds the extended real 1. -/
theorem V_aug_ones (c : Dev nD) (b : Fin 8) (r : Fin 8192) (p : Fin 65) (hp : p.val = 64) :
    V m c main_v2 (ix3 b r p) = (1 : EReal) := by
  refine (congrFun (V_main_v2 m c) (ix3 b r p)).trans ?_
  refine (concatenate_pair_apply_right (t := S8x8192x65) (s₁ := S8x8192x64) (s₂ := S8x8192x1) (2 : Fin 3) _ _ _ (ix3 b r p) rfl rfl (ix3 b r (0 : Fin 1)) ?_ ?_).trans ?_
  · intro a ha
    match a, ha with
    | ⟨0, _⟩, _ => rfl
    | ⟨1, _⟩, _ => rfl
    | ⟨2, _⟩, ha => exact absurd rfl ha
  · show (0 : Nat) + 64 = p.val
    omega
  · refine (broadcastInDim_apply _ _ _ (ix3 b r (0 : Fin 1)) ix0 (fun a => a.elim0)).trans ?_
    exact (constant_apply _ _).trans ofBits_one_f32

end Cert.KernelIdeal.Head

end
-- ==== Proof.Bridge.lean ====
/-
  The four tiles of a batch, put together: the accumulated contributions are the sums over all the batch's rows.

  Point 4 b + s of the grid works on batch b and on the rows 2048 s … 2048 s + 2047 of the batch's 8192 source rows.
  Its contribution to accumulator entry (p, n) is the sum over the tile's rows k of the augmented source array's
  entry p of row 2048 s + k times the indicator [source label of that row = target label n]. A sum over the 8192
  rows is the sum over the four runs of 2048 consecutive rows, so the four contributions of a batch add up to a
  sum over all its rows r. The augmented array is the source array with a column of ones appended; the labels the
  kernel reads are the launched ones (the target labels through a transposition). Hence, with the product commuted
  and the indicator's arguments exchanged:

  * for a channel ch < 64, the four contributions add up to  ∑ r, [target label n = source label r] * source (b, r, ch);
  * for the appended column, entry 64, each factor is 1 and they add up to the count  ∑ r, [target label n = source label r].
-/
import proofs.«115744_j1666447311241_2_alg».proof.Proof.Accum
import proofs.«115744_j1666447311241_2_alg».proof.Proof.Head
import proofs.«115744_j1666447311241_2_alg».proof.Proof.Spec

noncomputable section

open scoped BigOperators

namespace Cert.KernelIdeal.Bridge

open Cert.KernelIdeal Cert.KernelIdeal.Gen Cert.KernelIdeal.Accum Idealize.ShloMosaic Idealize.ShloMosaic.TcCoe Idealize.SL.Sem Idealize.ShloMosaic.ValueIdx

variable (m : (ℓ : Loc nD τ sig) → Buf (Elt Ideal) ℓ)

/-- Point 4 b + s, for s < 4, works on batch b. -/
theorem batchOf_point (b : Fin 8) (s : ℕ) (hs : s < 4) : batchOf (4 * b.val + s) = b :=
  Fin.ext (by
    have hb : b.val < 8 := b.isLt
    show (4 * b.val + s) / 4 % 8 = b.val
    omega)

/-- Row k of point 4 b + s's tile, for s < 4, is row 2048 s + k of the batch, written as the run splitting writes it. -/
theorem rowOf_point (b : Fin 8) (s : ℕ) (hs : s < 4) (k : Fin 2048) :
    rowOf (4 * b.val + s) k = (⟨(2048 * s + k.val) % 8192, Nat.mod_lt _ (by decide)⟩ : Fin 8192) :=
  Fin.ext (by
    have hk : k.val < 2048 := k.isLt
    show 2048 * ((4 * b.val + s) % 4) + k.val = (2048 * s + k.val) % 8192
    omega)

/-- A channel's four contributions add up to the indicator-weighted sum of the channel over all the batch's rows. -/
theorem channel_total (c : Dev nD) (b : Fin 8) (n : Fin 2048) (ch : Fin 64) :
    ∑ s ∈ Finset.range 4, contrib m c (4 * b.val + s) (⟨ch.val, by omega⟩ : Fin 65) n
      = ∑ r : Fin 8192, SegMean.ind (m ((c : Thread nD τ).loc main_arg0) (ix3 b n (0 : Fin 1))) (m ((c : Thread nD τ).loc main_arg1) (ix3 b r (0 : Fin 1)))
          * m ((c : Thread nD τ).loc main_arg2) (ix3 b r ch) := by
  refine Eq.trans ?_ (SegMean.sum_runs (fun r : Fin 8192 =>
    SegMean.ind (m ((c : Thread nD τ).loc main_arg0) (ix3 b n (0 : Fin 1))) (m ((c : Thread nD τ).loc main_arg1) (ix3 b r (0 : Fin 1)))
      * m ((c : Thread nD τ).loc main_arg2) (ix3 b r ch))).symm
  refine Finset.sum_congr rfl fun s hs => ?_
  have hs4 : s < 4 := Finset.mem_range.mp hs
  unfold contrib
  refine Finset.sum_congr rfl fun k _ => ?_
  rw [batchOf_point b s hs4, rowOf_point b s hs4 k]
  have h2 : aug m c (ix3 b (⟨(2048 * s + k.val) % 8192, Nat.mod_lt _ (by decide)⟩ : Fin 8192) (⟨ch.val, by omega⟩ : Fin 65))
      = (m ((c : Thread nD τ).loc main_arg2) (ix3 b (⟨(2048 * s + k.val) % 8192, Nat.mod_lt _ (by decide)⟩ : Fin 8192) ch) : EReal) :=
    Head.V_aug_data m c b _ (⟨ch.val, by omega⟩ : Fin 65) ch.isLt
  have h0 : labelsT m c (ix3 b (0 : Fin 1) n) = (m ((c : Thread nD τ).loc main_arg0) (ix3 b n (0 : Fin 1)) : BitVec 32) :=
    Head.V_labels m c b n
  have h1 : labelsS m c (ix3 b (⟨(2048 * s + k.val) % 8192, Nat.mod_lt _ (by decide)⟩ : Fin 8192) (0 : Fin 1))
      = (m ((c : Thread nD τ).loc main_arg1) (ix3 b (⟨(2048 * s + k.val) % 8192, Nat.mod_lt _ (by decide)⟩ : Fin 8192) (0 : Fin 1)) : BitVec 32) :=
    congrFun (V_main_arg1 m c) _
  refine (congrArg₂ (· * ·) h2 (congrArg₂ SegMean.ind h1 h0)).trans ?_
  refine (mul_comm _ _).trans ?_
  exact congrArg (· * _) (SegMean.ind_comm _ _)

/-- The appended column's four contributions add up to the number of the batch's rows carrying the target's label. -/
theorem count_total (c : Dev nD) (b : Fin 8) (n : Fin 2048) :
    ∑ s ∈ Finset.range 4, contrib m c (4 * b.val + s) (⟨64, by omega⟩ : Fin 65) n
      = ∑ r : Fin 8192, SegMean.ind (m ((c : Thread nD τ).loc main_arg0) (ix3 b n (0 : Fin 1))) (m ((c : Thread nD τ).loc main_arg1) (ix3 b r (0 : Fin 1))) := by
  refine Eq.trans ?_ (SegMean.sum_runs (fun r : Fin 8192 =>
    SegMean.ind (m ((c : Thread nD τ).loc main_arg0) (ix3 b n (0 : Fin 1))) (m ((c : Thread nD τ).loc main_arg1) (ix3 b r (0 : Fin 1))))).symm
  refine Finset.sum_congr rfl fun s hs => ?_
  have hs4 : s < 4 := Finset.mem_range.mp hs
  unfold contrib
  refine Finset.sum_congr rfl fun k _ => ?_
  rw [batchOf_point b s hs4, rowOf_point b s hs4 k]
  have h2 : aug m c (ix3 b (⟨(2048 * s + k.val) % 8192, Nat.mod_lt _ (by decide)⟩ : Fin 8192) (⟨64, by omega⟩ : Fin 65)) = (1 : EReal) :=
    Head.V_aug_ones m c b _ (⟨64, by omega⟩ : Fin 65) rfl
  have h0 : labelsT m c (ix3 b (0 : Fin 1) n) = (m ((c : Thread nD τ).loc main_arg0) (ix3 b n (0 : Fin 1)) : BitVec 32) :=
    Head.V_labels m c b n
  have h1 : labelsS m c (ix3 b (⟨(2048 * s + k.val) % 8192, Nat.mod_lt _ (by decide)⟩ : Fin 8192) (0 : Fin 1))
      = (m ((c : Thread nD τ).loc main_arg1) (ix3 b (⟨(2048 * s + k.val) % 8192, Nat.mod_lt _ (by decide)⟩ : Fin 8192) (0 : Fin 1)) : BitVec 32) :=
    congrFun (V_main_arg1 m c) _
  refine (congrArg₂ (· * ·) h2 (congrArg₂ SegMean.ind h1 h0)).trans ?_
  refine (one_mul _).trans ?_
  exact SegMean.ind_comm _ _

end Cert.KernelIdeal.Bridge

end
-- ==== Proof.Equal.lean ====
/-
  The kernel's result is the specification function of the argument arrays.

  At (b, n, ch) the kernel's result is the quotient of the finished accumulator's channel row by "ε + its count row"
  at column n; the finished channel row is the reference's sum over the 8192 source rows of
  [target label = source label] * source entry, and the finished count row is the number of matching rows.
-/
import proofs.«115744_j1666447311241_2_alg».proof.Proof.Final
import proofs.«115744_j1666447311241_2_alg».proof.Proof.Bridge

noncomputable section

open scoped BigOperators
open Idealize.ShloMosaic Idealize.ShloMosaic.TcCoe Idealize.SL.Sem Idealize.ShloMosaic.ValueIdx

namespace Cert.KernelIdeal.Equal

open Cert.KernelIdeal Cert.KernelIdeal.Gen

variable (m : (ℓ : Loc nD τ sig) → Buf (Elt Ideal) ℓ)

theorem result_is_G (c : Dev nD) :
    Final.result m c = SegMean.G (m ((c : Thread nD τ).loc main_arg0)) (m ((c : Thread nD τ).loc main_arg1))
      (m ((c : Thread nD τ).loc main_arg2)) := by
  funext i
  obtain ⟨b, n, ch, rfl⟩ : ∃ (b : Fin 8) (n : Fin 2048) (ch : Fin 64), i = ix3 b n ch := ⟨i 0, i 1, i 2, eq_ix3 i⟩
  rw [Final.result_apply, SegMean.G_apply]
  unfold Final.quotAt Final.total SegMean.pooled
  rw [Bridge.channel_total m c b n ch, Bridge.count_total m c b n]

end Cert.KernelIdeal.Equal

end
-- ==== Proof.lean ====
/-
  The kernel pools source rows onto target slots by matching integer labels and divides by "ε + the number of
  matches"; the reference does the same with one masked matrix product and one sum. This file assembles the claim.

  * The three frames. The kernel's, word-level and idealized, are the generated frame certificates (three control
    cases: the first, the middle and the last source tile of a batch). The reference has no kernel: its frame is its
    generated run with the result dropped.
  * The idealization rewrote nothing, so its conjunct is trivial.
  * The two idealized programs agree on the extended reals. The kernel side: the accumulator after each grid point is
    the sum of the batch's tile contributions so far (induction on the point), the written-back blocks tile the
    region's array, and the host transpose after the region gives the result. The reference side: its last stage read
    at an index. Both are the specification function `SegMean.G` of the argument arrays: the kernel's four runs of
    2048 rows re-index to the reference's 8192, products commute, the appended ones column turns a product into the
    count, and the quotient is applied to equal numerators and equal denominators. No law used needs finiteness, so
    the precondition is never opened.
-/
import proofs.«115744_j1666447311241_2_alg».proof.Defs
import proofs.«115744_j1666447311241_2_alg».proof.Proof.Gen.Kernel
import proofs.«115744_j1666447311241_2_alg».proof.Proof.Gen.Kernel.Skeleton
import proofs.«115744_j1666447311241_2_alg».proof.Proof.Gen.Kernel.Launch
import proofs.«115744_j1666447311241_2_alg».proof.Proof.Gen.Kernel.Points
import proofs.«115744_j1666447311241_2_alg».proof.Proof.Gen.Kernel.Frame
import proofs.«115744_j1666447311241_2_alg».proof.Proof.Gen.KernelIdeal
import proofs.«115744_j1666447311241_2_alg».proof.Proof.Gen.KernelIdeal.Skeleton
import proofs.«115744_j1666447311241_2_alg».proof.Proof.Gen.KernelIdeal.Launch
import proofs.«115744_j1666447311241_2_alg».proof.Proof.Gen.KernelIdeal.Points
import proofs.«115744_j1666447311241_2_alg».proof.Proof.Gen.KernelIdeal.Frame
import proofs.«115744_j1666447311241_2_alg».proof.Proof.Gen.ReferenceIdeal
import proofs.«115744_j1666447311241_2_alg».proof.Proof.Gen.ReferenceIdeal.Run
import proofs.«115744_j1666447311241_2_alg».proof.Proof.Gen.ReferenceIdeal.Read
import proofs.«115744_j1666447311241_2_alg».proof.Proof.Gen.Pre_finite_inputs
import proofs.«115744_j1666447311241_2_alg».proof.Proof.RefSide
import proofs.«115744_j1666447311241_2_alg».proof.Proof.Equal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification function of the (agreeing) argument arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefSide.ref_is_G, (hagree c).1, (hagree c).2.1,
    (hagree c).2.2]
  exact (Cert.KernelIdeal.Equal.result_is_G m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
